-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S640000 : Shape := ⟨1, ![640000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S640000 32) (main_arg2 : IVec S640000 32) (main_arg3 : FVec F S128x128 .f32) (main_arg4 : FVec F S128 .f32) (main_arg5 : FVec F S128x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S100000x128 : Shape := ⟨2, ![100000, 128]⟩
abbrev S640000 : Shape := ⟨1, ![640000]⟩
abbrev S128x128 : Shape := ⟨2, ![128, 128]⟩
abbrev S128 : Shape := ⟨1, ![128]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 30
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S640000, .i32⟩
  | .hbm, ⟨9, _⟩ => ⟨S640000, .i1⟩
  | .hbm, ⟨10, _⟩ => ⟨S_, .i32⟩
  | .hbm, ⟨11, _⟩ => ⟨S640000, .i32⟩
  | .hbm, ⟨12, _⟩ => ⟨S640000, .i32⟩
  | .hbm, ⟨13, _⟩ => ⟨S640000, .i32⟩
  | .hbm, ⟨14, _⟩ => ⟨S640000x1, .i32⟩
  | .hbm, ⟨15, _⟩ => ⟨S640000x128, .f32⟩
  | .hbm, ⟨16, _⟩ => ⟨S_, .f32⟩
  | .hbm, ⟨17, _⟩ => ⟨S100000x128, .f32⟩
  | .hbm, ⟨18, _⟩ => ⟨S640000x1, .i32⟩
  | .hbm, ⟨19, _⟩ => ⟨S100000x128, .f32⟩
  | .hbm, ⟨20, _⟩ => ⟨S_, .f32⟩
  | .hbm, ⟨21, _⟩ => ⟨S640000, .f32⟩
  | .hbm, ⟨22, _⟩ => ⟨S_, .f32⟩
  | .hbm, ⟨23, _⟩ => ⟨S100000, .f32⟩
  | .hbm, ⟨24, _⟩ => ⟨S640000x1, .i32⟩
  | .hbm, ⟨25, _⟩ => ⟨S100000, .f32⟩
  | .hbm, ⟨26, _⟩ => ⟨S100000x1, .f32⟩
  | .hbm, ⟨27, _⟩ => ⟨S1x128, .f32⟩
  | .hbm, ⟨28, _⟩ => ⟨S1x128, .f32⟩
  | .hbm, ⟨29, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S100000x128.size a
  hwx0_7 : ∀ i : grid0.Coords, EltTy.bits .f32 = 32 ∨ (Rect.block (s := S100000x128) S5000x128.size (cc0_transform_7 i) (hinb0_7 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x128 : Shape := ⟨2, ![100000, 128]⟩
abbrev S640000 : Shape := ⟨1, ![640000]⟩
abbrev S128x128 : Shape := ⟨2, ![128, 128]⟩
abbrev S128 : Shape := ⟨1, ![128]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 41
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S640000, .i32⟩
  | .hbm, ⟨9, _⟩ => ⟨S640000, .i1⟩
  | .hbm, ⟨10, _⟩ => ⟨S_, .i32⟩
  | .hbm, ⟨11, _⟩ => ⟨S640000, .i32⟩
  | .hbm, ⟨12, _⟩ => ⟨S640000, .i32⟩
  | .hbm, ⟨13, _⟩ => ⟨S640000, .i32⟩
  | .hbm, ⟨14, _⟩ => ⟨S640000x1, .i32⟩
  | .hbm, ⟨15, _⟩ => ⟨S640000x128, .f32⟩
  | .hbm, ⟨16, _⟩ => ⟨S_, .f32⟩
  | .hbm, ⟨17, _⟩ => ⟨S100000x128, .f32⟩
  | .hbm, ⟨18, _⟩ => ⟨S640000x1, .i32⟩
  | .hbm, ⟨19, _⟩ => ⟨S100000x128, .f32⟩
  | .hbm, ⟨20, _⟩ => ⟨S_, .f32⟩
  | .hbm, ⟨21, _⟩ => ⟨S640000, .f32⟩
  | .hbm, ⟨22, _⟩ => ⟨S_, .f32⟩
  | .hbm, ⟨23, _⟩ => ⟨S100000, .f32⟩
  | .hbm, ⟨24, _⟩ => ⟨S640000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S1x128, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S100000x128_S128x128_S100000x128_1_0_0_1_n_n_wf : DotDims.WF S100000x128 S128x128 S100000x128 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The layer's value as ONE function of seven arrays, entry by entry, on the extended reals.

  For node features `feat` (100000 × 128), the per-node sum `nsum` of the features of a node's in-neighbours
  (100000 × 128), the per-node in-degree `deg` (100000), two weight matrices `Ws`, `Wn` (128 × 128) and two
  biases `bs`, `bn` (128), entry `(r, q)` of the output is

      ((Σₖ feat[r,k] · Ws[k,q]  +  bs[q])  +  Σₖ (nsum[r,k] / max(deg[r], 1)) · Wn[k,q])  +  bn[q].

  The sums range over the 128 feature coordinates; the quotient is the extended reals' total division; `1` is the
  float word of one. Both programs compute exactly this bracketing, so no law beyond the definition of the
  operations is needed to join them: the additions are never reassociated and no factor is moved across a sum.
-/
import Idealize.ShloMosaic.PureOps.Ideal
import Idealize.ShloMosaic.Lib.ValueIdx

noncomputable section

namespace Cert.SageSpec

open Idealize.ShloMosaic Idealize.ShloMosaic.ValueIdx

/-- Entry `(r, q)` of the layer's output: row `r` of `feat` against column `q` of `Ws`, plus `bs[q]`, plus row `r`
    of the mean of the in-neighbours' features (`nsum[r,·] / max(deg[r], 1)`) against column `q` of `Wn`, plus `bn[q]`. -/
def outAt (feat nsum : FVec Ideal ⟨2, ![100000, 128]⟩ .f32) (deg : FVec Ideal ⟨1, ![100000]⟩ .f32)
    (Ws Wn : FVec Ideal ⟨2, ![128, 128]⟩ .f32) (bs bn : FVec Ideal ⟨1, ![128]⟩ .f32) (r : Fin 100000) (q : Fin 128) : EReal :=
  (((∑ k : Fin 128, feat (ix2 r k) * Ws (ix2 k q)) + bs (ix1 q))
    + ∑ k : Fin 128, Ideal.div (nsum (ix2 r k)) (max (deg (ix1 r)) (Ideal.ofBits .f32 0x3F800000#32)) * Wn (ix2 k q))
  + bn (ix1 q)

/-- The whole output array: `outAt` at an index's two coordinates. -/
def out (feat nsum : FVec Ideal ⟨2, ![100000, 128]⟩ .f32) (deg : FVec Ideal ⟨1, ![100000]⟩ .f32)
    (Ws Wn : FVec Ideal ⟨2, ![128, 128]⟩ .f32) (bs bn : FVec Ideal ⟨1, ![128]⟩ .f32) : FVec Ideal ⟨2, ![100000, 128]⟩ .f32 :=
  fun i => outAt feat nsum deg Ws Wn bs bn (i 0) (i 1)

theorem out_ix2 (feat nsum : FVec Ideal ⟨2, ![100000, 128]⟩ .f32) (deg : FVec Ideal ⟨1, ![100000]⟩ .f32)
    (Ws Wn : FVec Ideal ⟨2, ![128, 128]⟩ .f32) (bs bn : FVec Ideal ⟨1, ![128]⟩ .f32) (r : Fin 100000) (q : Fin 128) :
    out feat nsum deg Ws Wn bs bn (ix2 r q) = outAt feat nsum deg Ws Wn bs bn r q := rfl

end Cert.SageSpec

end
-- ==== Proof.RefIsSpec.lean ====
/-
  The reference computes the layer's function.

  Its result is built stage by stage: the two matrix products are sums over the contracted coordinate, the biases
  are broadcast along the rows, the degree (clamped below by one) is broadcast along the columns before the division.
  Read at an index `(r, q)` each broadcast just drops the coordinate it does not depend on, so the composed term is
  `SageSpec.outAt` of the arguments, the neighbour sum and the degree. The last two are the terms the host's gather and
  scatter-adds produce; nothing about them is used, so they are treated as arbitrary arrays throughout.
-/
import proofs.«145231_j25950192402572_2_alg».proof.Proof.Gen.ReferenceIdeal.Read
import proofs.«145231_j25950192402572_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-! ### Where each stage reads its operand, in coordinates -/

theorem lidx19 (i : S100000x128.Idx) (k : Fin 128) : lidx_main_v19 i k = ix2 (n0 := 100000) (n1 := 128) (i 0) k :=
  funext fun a => Fin.ext (by match a with | ⟨0, _⟩ => rfl | ⟨1, _⟩ => rfl)
theorem ridx19 (i : S100000x128.Idx) (k : Fin 128) : ridx_main_v19 i k = ix2 (n0 := 128) (n1 := 128) k (i 1) :=
  funext fun a => Fin.ext (by match a with | ⟨0, _⟩ => rfl | ⟨1, _⟩ => rfl)
theorem lidx23 (i : S100000x128.Idx) (k : Fin 128) : lidx_main_v23 i k = ix2 (n0 := 100000) (n1 := 128) (i 0) k :=
  funext fun a => Fin.ext (by match a with | ⟨0, _⟩ => rfl | ⟨1, _⟩ => rfl)
theorem ridx23 (i : S100000x128.Idx) (k : Fin 128) : ridx_main_v23 i k = ix2 (n0 := 128) (n1 := 128) k (i 1) :=
  funext fun a => Fin.ext (by match a with | ⟨0, _⟩ => rfl | ⟨1, _⟩ => rfl)
/-- A bias broadcast along the rows is read at the column. -/
theorem bias_s (i : S100000x128.Idx) : idx_main_v20 (idx_main_v21 i) = ix1 (n := 128) (i 1) :=
  funext fun a => Fin.ext (by match a with | ⟨0, _⟩ => rfl)
theorem bias_n (i : S100000x128.Idx) : idx_main_v25 (idx_main_v26 i) = ix1 (n := 128) (i 1) :=
  funext fun a => Fin.ext (by match a with | ⟨0, _⟩ => rfl)

/-! ### The mean stage, for arbitrary neighbour-sum and degree arrays -/

/-- Entry `j` of `N / broadcast (max D 1)`: the degree, clamped below by one and broadcast first to a column and
    then across the columns, is read at `j`'s row. -/
theorem mean_at (N : (⟨S100000x128, .f32⟩ : BufTy).Contents (Elt Ideal)) (D : (⟨S100000, .f32⟩ : BufTy).Contents (Elt Ideal))
    (j : S100000x128.Idx) :
    Host.divf (F := Ideal) (s := S100000x128) (φ := .f32) N (broadcastInDim S100000x128 ![0, 1] bcast_S100000x1_S100000x128_0_1
        (broadcastInDim S100000x1 ![0] bcast_S100000_S100000x1_0 (maximumf (F := Ideal) (s := S100000) (φ := .f32) D (val_main_v14 (F := Ideal))))) j
      = Ideal.div (N j) (max (D (ix1 (n := 100000) (j 0))) (Ideal.ofBits .f32 0x3F800000#32)) := by
  obtain ⟨r, k, rfl⟩ : ∃ (r : Fin 100000) (k : Fin 128), j = ix2 r k := ⟨j 0, j 1, eq_ix2 j⟩
  show Ideal.div (N (ix2 r k)) (broadcastInDim S100000x128 ![0, 1] bcast_S100000x1_S100000x128_0_1
        (broadcastInDim S100000x1 ![0] bcast_S100000_S100000x1_0 (maximumf (F := Ideal) (s := S100000) (φ := .f32) D (val_main_v14 (F := Ideal)))) (ix2 r k))
      = Ideal.div (N (ix2 r k)) (max (D (ix1 r)) (Ideal.ofBits .f32 0x3F800000#32))
  rw [broadcastInDim_apply _ bcast_S100000x1_S100000x128_0_1 _ (ix2 r k) (ix2 r (0 : Fin 1)) (fun a => match a with
      | ⟨0, _⟩ => by show r.val = if (100000 : Nat) = 1 then 0 else r.val; rw [if_neg (by decide)]
      | ⟨1, _⟩ => by show 0 = if (1 : Nat) = 1 then 0 else k.val; rw [if_pos rfl]),
    broadcastInDim_apply _ bcast_S100000_S100000x1_0 _ (ix2 r (0 : Fin 1)) (ix1 r) (fun a => match a with
      | ⟨0, _⟩ => by show r.val = if (100000 : Nat) = 1 then 0 else r.val; rw [if_neg (by decide)])]
  show Ideal.div (N (ix2 r k)) (max (D (ix1 r)) (val_main_v14 (F := Ideal) (ix1 r))) = _
  rw [val_main_v14_apply, val_main_cst_3_apply]
  rfl

/-- The reference's mean stage is the quotient of its neighbour-sum term by its clamped, broadcast degree term: the
    stages' definitions, unfolded down to (and not into) those two terms. -/
theorem mean_stage (x0 : (⟨S100000x128, .f32⟩ : BufTy).Contents (Elt Ideal)) (x1 x2 : (⟨S640000, .i32⟩ : BufTy).Contents (Elt Ideal)) :
    val_main_v18 (F := Ideal) x0 x1 x2
      = Host.divf (F := Ideal) (s := S100000x128) (φ := .f32) (val_main_v9 (F := Ideal) x0 x1 x2) (broadcastInDim S100000x128 ![0, 1] bcast_S100000x1_S100000x128_0_1
          (broadcastInDim S100000x1 ![0] bcast_S100000_S100000x1_0 (maximumf (F := Ideal) (s := S100000) (φ := .f32) (val_main_v13 (F := Ideal) x2) (val_main_v14 (F := Ideal))))) := rfl

/-- The reference's result is the layer's function of its arguments, of the neighbour sum and of the degree. -/
theorem ref_eq_spec (x0 : (⟨S100000x128, .f32⟩ : BufTy).Contents (Elt Ideal)) (x1 x2 : (⟨S640000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) :
    val_main_v27 (F := Ideal) x0 x1 x2 x3 x4 x5 x6
      = Cert.SageSpec.out x0 (val_main_v9 (F := Ideal) x0 x1 x2) (val_main_v13 (F := Ideal) x2) x3 x5 x4 x6 := by
  funext i
  rw [val_main_v27_apply, val_main_v24_apply, val_main_v22_apply, val_main_v19_apply, val_main_v23_apply,
    val_main_v21_apply, val_main_v20_apply, val_main_v26_apply, val_main_v25_apply, mean_stage]
  generalize val_main_v9 (F := Ideal) x0 x1 x2 = N
  generalize val_main_v13 (F := Ideal) x2 = D
  simp only [lidx19, ridx19, lidx23, ridx23, bias_s, bias_n, Ideal.addf_def]
  have hmean : ∀ k : Fin 128, Host.divf (F := Ideal) (s := S100000x128) (φ := .f32) N (broadcastInDim S100000x128 ![0, 1] bcast_S100000x1_S100000x128_0_1
        (broadcastInDim S100000x1 ![0] bcast_S100000_S100000x1_0 (maximumf (F := Ideal) (s := S100000) (φ := .f32) D (val_main_v14 (F := Ideal)))))
        (ix2 (n0 := 100000) (n1 := 128) (i 0) k)
      = Ideal.div (N (ix2 (n0 := 100000) (n1 := 128) (i 0) k)) (max (D (ix1 (n := 100000) (i 0))) (Ideal.ofBits .f32 0x3F800000#32)) :=
    fun k => mean_at N D _
  simp only [hmean]
  unfold Cert.SageSpec.out Cert.SageSpec.outAt
  rfl

end Cert.ReferenceIdeal.RefValue

end
-- ==== Proof.Payload.lean ====
/-
  What the kernel body stores, entry by entry.

  At one grid point the body sees a block of 5000 rows: `x0` (features), `x1` (neighbour sums), `x2` (degrees, one
  column), the two whole weight matrices `x3`, `x4` and the two biases `x5`, `x6` as single rows. It divides each row of
  `x1` by that row's degree clamped below by one, multiplies `x0` and the quotient by the weights (each product into a
  zero accumulator, so it is the plain sum over the 128 contracted coordinates), and adds the biases, broadcast down
  the rows. Changes of float format are the identity on the extended reals. Entry `(p, q)` of the stored block is
  therefore the same bracketing of the same sums as `SageSpec.outAt`, over the block's rows.
-/
import proofs.«145231_j25950192402572_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ### The block product's operand indices -/

theorem lhs_row (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_contr (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c
theorem rhs_contr (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c
theorem rhs_col (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block of rows times a weight matrix, into a zero accumulator: entry `(p, q)` is the sum over the contracted
    coordinate of row `p` against column `q`. -/
theorem matmul_at {φ₁ φ₂ : FTy} (l : FVec Ideal S5000x128 φ₁) (r : FVec Ideal S128x128 φ₂) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_contr _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_contr _ _).trans hk
    | ⟨1, _⟩ => exact rhs_col _ _)
  rw [el, er]

/-! ### The two broadcasts -/

/-- A single row broadcast down the rows is read at the column. -/
theorem row_bcast {α : Type} (v : S1x128.Idx → α) (h : S1x128.Broadcasts S5000x128) (p : Fin 5000) (q : Fin 128) :
    broadcastTo S5000x128 v h (ix2 p q) = v (ix2 (0 : Fin 1) q) :=
  broadcastTo_apply v h (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])

/-- A single column broadcast across the columns is read at the row. -/
theorem col_bcast {α : Type} (v : S5000x1.Idx → α) (h : S5000x1.Broadcasts S5000x128) (p : Fin 5000) (q : Fin 128) :
    broadcastTo S5000x128 v h (ix2 p q) = v (ix2 p (0 : Fin 1)) :=
  broadcastTo_apply v h (ix2 p q) (ix2 p (0 : Fin 1)) (fun a => match a with
    | ⟨0, _⟩ => by show p.val = if (5000 : Nat) = 1 then 0 else p.val; rw [if_neg (by decide)]
    | ⟨1, _⟩ => by show 0 = if (1 : Nat) = 1 then 0 else q.val; rw [if_pos rfl])

/-! ### The stored block at an entry -/

/-- Entry `(p, q)` of what the body stores, from the blocks it loaded. -/
theorem pay_at (x2 : Vec Ideal S5000x1 .f32) (x1 x0 : Vec Ideal S5000x128 .f32) (x3 x4 : Vec Ideal S128x128 .f32)
    (x5 x6 : Vec Ideal S1x128 .f32) (p : Fin 5000) (q : Fin 128) :
    k0_pay1 (F := Ideal) x2 x1 x0 x3 x4 x5 x6 (ix2 p q)
      = (((∑ k : Fin 128, x0 (ix2 p k) * x3 (ix2 k q)) + x5 (ix2 (0 : Fin 1) q))
          + ∑ k : Fin 128, Ideal.div (x1 (ix2 p k)) (max (x2 (ix2 p (0 : Fin 1))) (Ideal.ofBits .f32 0x3F800000#32)) * x4 (ix2 k q))
        + x6 (ix2 (0 : Fin 1) q) := by
  unfold k0_pay1
  simp only [addf_apply, matmul_at, row_bcast, col_bcast, divf_apply, maximumf_apply, truncf_apply, shapeCast_self,
    broadcast_apply]
  rfl

end Cert.KernelIdeal.Body

end
-- ==== Proof.HostArrays.lean ====
/-
  The arrays the kernel's region finds that the host wrote before it.

  Three of the region's operands are not arguments. The neighbour-sum array is the host's scatter-add of gathered
  feature rows; the degree column is the host's scatter-add of ones, reshaped from 100000 entries to 100000 × 1; each
  bias row is a bias argument reshaped from 128 entries to 1 × 128. The reference program builds the neighbour sum and
  the degree by the very same operations on the same arguments, so those two are stated as the reference's own terms
  and never opened. A reshape keeps the row-major position: entry `(r, 0)` of a 100000 × 1 array is entry `r` of the
  vector, entry `(0, q)` of a 1 × 128 array is entry `q`.
-/
import proofs.«145231_j25950192402572_2_alg».proof.Proof.Gen.KernelIdeal.Frame
import proofs.«145231_j25950192402572_2_alg».proof.Proof.Gen.ReferenceIdeal.Read
import Idealize.ShloMosaic.Lib.StableHlo.Run
import Idealize.ShloMosaic.Lib.Pipeline.Value
import Idealize.ShloMosaic.Lib.ValueIdx

noncomputable section

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The neighbour-sum array at region entry is the reference's neighbour-sum term of the same three arguments. -/
theorem V_nsum (c : Dev nD) : (V m c main_v9 : S100000x128.Idx → EReal)
    = Cert.ReferenceIdeal.Read.val_main_v9 (F := Ideal) (m ((c : Thread nD τ).loc main_arg0))
        (m ((c : Thread nD τ).loc main_arg1)) (m ((c : Thread nD τ).loc main_arg2)) := by
  dsimp only [Gen.V, Gen.hostOps0]
  after_results
  rfl

/-- The degree column at region entry, at row `r`, is the reference's degree term at `r`. -/
theorem V_deg_at (c : Dev nD) (r : Fin 100000) : (V m c main_v14 : S100000x1.Idx → EReal) (ix2 r (0 : Fin 1))
    = Cert.ReferenceIdeal.Read.val_main_v13 (F := Ideal) (m ((c : Thread nD τ).loc main_arg2)) (ix1 r) := by
  have e : (V m c main_v14 : S100000x1.Idx → EReal)
      = shapeCast S100000x1 (Cert.ReferenceIdeal.Read.val_main_v13 (F := Ideal) (m ((c : Thread nD τ).loc main_arg2)))
          shapeCasts_S100000_S100000x1 := by
    dsimp only [Gen.V, Gen.hostOps0]
    after_results
    rfl
  rw [e]
  exact shapeCast_apply _ _ (ix2 r (0 : Fin 1)) (ix1 r) (by
    rw [Shape.rowMajor_val_one, Shape.rowMajor_val_two]
    show r.val = r.val * 1 + 0
    omega)

/-- The first bias row at region entry, at column `q`, is the bias argument at `q`. -/
theorem V_bs_at (c : Dev nD) (q : Fin 128) : (V m c main_v15 : S1x128.Idx → EReal) (ix2 (0 : Fin 1) q)
    = (m ((c : Thread nD τ).loc main_arg4) : S128.Idx → EReal) (ix1 q) := by
  have e : (V m c main_v15 : S1x128.Idx → EReal)
      = shapeCast S1x128 (m ((c : Thread nD τ).loc main_arg4) : S128.Idx → EReal) shapeCasts_S128_S1x128 := by
    dsimp only [Gen.V, Gen.hostOps0]
    after_results
    rfl
  rw [e]
  exact shapeCast_apply _ _ (ix2 (0 : Fin 1) q) (ix1 q) (by
    rw [Shape.rowMajor_val_one, Shape.rowMajor_val_two]
    show q.val = 0 * 128 + q.val
    omega)

/-- The second bias row at region entry, at column `q`, is the bias argument at `q`. -/
theorem V_bn_at (c : Dev nD) (q : Fin 128) : (V m c main_v16 : S1x128.Idx → EReal) (ix2 (0 : Fin 1) q)
    = (m ((c : Thread nD τ).loc main_arg6) : S128.Idx → EReal) (ix1 q) := by
  have e : (V m c main_v16 : S1x128.Idx → EReal)
      = shapeCast S1x128 (m ((c : Thread nD τ).loc main_arg6) : S128.Idx → EReal) shapeCasts_S128_S1x128 := by
    dsimp only [Gen.V, Gen.hostOps0]
    after_results
    rfl
  rw [e]
  exact shapeCast_apply _ _ (ix2 (0 : Fin 1) q) (ix1 q) (by
    rw [Shape.rowMajor_val_one, Shape.rowMajor_val_two]
    show q.val = 0 * 128 + q.val
    omega)

end Cert.KernelIdeal.HostSide

end
-- ==== Proof.BlocksToArray.lean ====
/-
  From the kernel's blocks to the whole result array.

  The grid has 20 points; point `t` works on rows `5000·t … 5000·t + 4999`: its feature, neighbour-sum and degree
  blocks and its output block all sit at block index `(t, 0)`, while the weights and biases are the whole arrays at
  block index `(0, 0)` at every point. So row `p` of a point's blocks is row `5000·t + p` of the arrays, and what the
  point writes back is block `t` of the layer's function `SageSpec.out` of the arrays as the region finds them. Every
  row `r` lies in the block of point `r / 5000`, so the blocks cover the array and the array ends as that function.
-/
import proofs.«145231_j25950192402572_2_alg».proof.Proof.Gen.KernelIdeal.Value
import proofs.«145231_j25950192402572_2_alg».proof.Proof.Spec
import proofs.«145231_j25950192402572_2_alg».proof.Proof.Payload
import proofs.«145231_j25950192402572_2_alg».proof.Proof.HostArrays

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The layer's function of the launch contents of the seven arguments: the neighbour sum and the degree are the
    host's terms of the feature and edge arguments. -/
def result (c : Dev nD) : S100000x128.Idx → Elt Ideal .f32 :=
  Cert.SageSpec.out (m ((c : Thread nD τ).loc main_arg0))
    (Cert.ReferenceIdeal.Read.val_main_v9 (F := Ideal) (m ((c : Thread nD τ).loc main_arg0)) (m ((c : Thread nD τ).loc main_arg1)) (m ((c : Thread nD τ).loc main_arg2)))
    (Cert.ReferenceIdeal.Read.val_main_v13 (F := Ideal) (m ((c : Thread nD τ).loc main_arg2)))
    (m ((c : Thread nD τ).loc main_arg3)) (m ((c : Thread nD τ).loc main_arg5)) (m ((c : Thread nD τ).loc main_arg4)) (m ((c : Thread nD τ).loc main_arg6))

theorem zero_offsets : (![0, 0] : Fin 2 → Nat) = fun _ => 0 := funext fun a => by fin_cases a <;> rfl

/-- The printed index maps, decided over the 20 points: the row-blocked windows sit at block `(t, 0)`, the whole-array
    windows at block `(0, 0)`. -/
theorem idx_facts : ∀ t : Fin cfg0.N,
    win0_7.index t (0 : Fin 2) = t.val ∧ win0_7.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem point_lt (t : Fin cfg0.N) : t.val < 20 :=
  lt_of_lt_of_eq (show t.val < grid0.N from t.isLt) N_0

/-- Row `p` of point `t`'s blocks is row `5000·t + p` of the arrays. -/
def row (t : Fin cfg0.N) (p : Fin 5000) : Fin 100000 :=
  ⟨t.val * 5000 + p.val, by have := point_lt t; have := p.isLt; omega⟩

/-! ### Each window's block at a point, read off the arrays -/

theorem blk_feat (c : Dev nD) (t : Fin cfg0.N) (p : Fin 5000) (k : Fin 128) :
    iblk m c 0 t (ix2 p k) = ((m ((c : Thread nD τ).loc main_arg0)) : S100000x128.Idx → EReal) (ix2 (row t p) k) := by
  obtain ⟨-, -, e0, e1, -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- Row `p` of point `t`'s block of ANY 100000 × 128 array staged through the neighbour-sum window is row
    `5000·t + p` of that array. -/
theorem read_nsum (t : Fin cfg0.N) (A : ((cfg0.win 1).blk t).view.ty.Contents (Elt Ideal)) (p : Fin 5000) (k : Fin 128) :
    ((cfg0.win 1).blk t).view.read (Elt Ideal) A (ix2 p k) = (A : S100000x128.Idx → EReal) (ix2 (row t p) k) := by
  obtain ⟨-, -, -, -, e0, e1, -⟩ := idx_facts t
  show (A : S100000x128.Idx → EReal) (((cfg0.win 1).blk t).view.emb (ix2 p k)) = _
  refine congrArg _ (funext fun a => Fin.ext ?_)
  match a with
  | ⟨0, _⟩ => show win0_1.index t (0 : Fin 2) * 5000 + 1 * p.val = t.val * 5000 + p.val; omega
  | ⟨1, _⟩ => show win0_1.index t (1 : Fin 2) * 128 + 1 * k.val = k.val; omega

theorem blk_nsum (c : Dev nD) (t : Fin cfg0.N) (p : Fin 5000) (k : Fin 128) :
    iblk m c 1 t (ix2 p k) = Cert.ReferenceIdeal.Read.val_main_v9 (F := Ideal) (m ((c : Thread nD τ).loc main_arg0)) (m ((c : Thread nD τ).loc main_arg1)) (m ((c : Thread nD τ).loc main_arg2)) (ix2 (row t p) k) := by
  unfold iblk
  rw [read_nsum]
  exact congrFun (HostSide.V_nsum m c) _

/-- The same for ANY 100000 × 1 column staged through the degree window. -/
theorem read_deg (t : Fin cfg0.N) (A : ((cfg0.win 2).blk t).view.ty.Contents (Elt Ideal)) (p : Fin 5000) :
    ((cfg0.win 2).blk t).view.read (Elt Ideal) A (ix2 p (0 : Fin 1)) = (A : S100000x1.Idx → EReal) (ix2 (row t p) (0 : Fin 1)) := by
  obtain ⟨-, -, -, -, -, -, e0, e1, -⟩ := idx_facts t
  show (A : S100000x1.Idx → EReal) (((cfg0.win 2).blk t).view.emb (ix2 p (0 : Fin 1))) = _
  refine congrArg _ (funext fun a => Fin.ext ?_)
  match a with
  | ⟨0, _⟩ => show win0_2.index t (0 : Fin 2) * 5000 + 1 * p.val = t.val * 5000 + p.val; omega
  | ⟨1, _⟩ => show win0_2.index t (1 : Fin 2) * 1 + 1 * 0 = 0; omega

theorem blk_deg (c : Dev nD) (t : Fin cfg0.N) (p : Fin 5000) :
    iblk m c 2 t (ix2 p (0 : Fin 1)) = Cert.ReferenceIdeal.Read.val_main_v13 (F := Ideal) (m ((c : Thread nD τ).loc main_arg2)) (ix1 (row t p)) := by
  unfold iblk
  rw [read_deg]
  exact HostSide.V_deg_at m c (row t p)

theorem blk_ws (c : Dev nD) (t : Fin cfg0.N) (k q : Fin 128) :
    iblk m c 3 t (ix2 k q) = ((m ((c : Thread nD τ).loc main_arg3)) : S128x128.Idx → EReal) (ix2 k q) := by
  obtain ⟨-, -, -, -, -, -, -, -, e0, e1, -⟩ := idx_facts t
  show V m c main_arg3 (((cfg0.win 3).blk t).view.emb (ix2 k q)) = _
  rw [V_main_arg3]
  refine congrArg _ (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

theorem blk_wn (c : Dev nD) (t : Fin cfg0.N) (k q : Fin 128) :
    iblk m c 4 t (ix2 k q) = ((m ((c : Thread nD τ).loc main_arg5)) : S128x128.Idx → EReal) (ix2 k q) := by
  obtain ⟨-, -, -, -, -, -, -, -, -, -, e0, e1, -⟩ := idx_facts t
  show V m c main_arg5 (((cfg0.win 4).blk t).view.emb (ix2 k q)) = _
  rw [V_main_arg5]
  refine congrArg _ (funext fun a => Fin.ext ?_)
  match a with
  | ⟨0, _⟩ => show win0_4.index t (0 : Fin 2) * 128 + 1 * k.val = k.val; omega
  | ⟨1, _⟩ => show win0_4.index t (1 : Fin 2) * 128 + 1 * q.val = q.val; omega

/-- The one row of ANY 1 × 128 array staged through the first bias window is that array's row. -/
theorem read_bs (t : Fin cfg0.N) (A : ((cfg0.win 5).blk t).view.ty.Contents (Elt Ideal)) (q : Fin 128) :
    ((cfg0.win 5).blk t).view.read (Elt Ideal) A (ix2 (0 : Fin 1) q) = (A : S1x128.Idx → EReal) (ix2 (0 : Fin 1) q) := by
  obtain ⟨-, -, -, -, -, -, -, -, -, -, -, -, e0, e1, -⟩ := idx_facts t
  show (A : S1x128.Idx → EReal) (((cfg0.win 5).blk t).view.emb (ix2 (0 : Fin 1) q)) = _
  refine congrArg _ (funext fun a => Fin.ext ?_)
  match a with
  | ⟨0, _⟩ => show win0_5.index t (0 : Fin 2) * 1 + 1 * 0 = 0; omega
  | ⟨1, _⟩ => show win0_5.index t (1 : Fin 2) * 128 + 1 * q.val = q.val; omega

theorem blk_bs (c : Dev nD) (t : Fin cfg0.N) (q : Fin 128) :
    iblk m c 5 t (ix2 (0 : Fin 1) q) = ((m ((c : Thread nD τ).loc main_arg4)) : S128.Idx → EReal) (ix1 q) := by
  unfold iblk
  rw [read_bs]
  exact HostSide.V_bs_at m c q

/-- The same through the second bias window. -/
theorem read_bn (t : Fin cfg0.N) (A : ((cfg0.win 6).blk t).view.ty.Contents (Elt Ideal)) (q : Fin 128) :
    ((cfg0.win 6).blk t).view.read (Elt Ideal) A (ix2 (0 : Fin 1) q) = (A : S1x128.Idx → EReal) (ix2 (0 : Fin 1) q) := by
  obtain ⟨-, -, -, -, -, -, -, -, -, -, -, -, -, -, e0, e1⟩ := idx_facts t
  show (A : S1x128.Idx → EReal) (((cfg0.win 6).blk t).view.emb (ix2 (0 : Fin 1) q)) = _
  refine congrArg _ (funext fun a => Fin.ext ?_)
  match a with
  | ⟨0, _⟩ => show win0_6.index t (0 : Fin 2) * 1 + 1 * 0 = 0; omega
  | ⟨1, _⟩ => show win0_6.index t (1 : Fin 2) * 128 + 1 * q.val = q.val; omega

theorem blk_bn (c : Dev nD) (t : Fin cfg0.N) (q : Fin 128) :
    iblk m c 6 t (ix2 (0 : Fin 1) q) = ((m ((c : Thread nD τ).loc main_arg6)) : S128.Idx → EReal) (ix1 q) := by
  unfold iblk
  rw [read_bn]
  exact HostSide.V_bn_at m c q

/-- Entry `(p, q)` of the output block at point `t` is entry `(5000·t + p, q)` of the array. -/
theorem out_emb (t : Fin cfg0.N) (p : Fin 5000) (q : Fin 128) :
    ((cfg0.win 7).blk t).view.emb (ix2 p q) = ix2 (row t p) q := by
  obtain ⟨e0, e1, -⟩ := idx_facts t
  refine funext fun a => Fin.ext ?_
  match a with
  | ⟨0, _⟩ => show win0_7.index t (0 : Fin 2) * 5000 + 1 * p.val = t.val * 5000 + p.val; omega
  | ⟨1, _⟩ => show win0_7.index t (1 : Fin 2) * 128 + 1 * q.val = q.val; omega

/-! ### What a point writes back -/

/-- Point `t` writes back block `t` of the layer's function. -/
theorem flushed_eq (c : Dev nD) (t : Fin cfg0.N) :
    (dats m 0 c).flushed 7 t = ((cfg0.win 7).blk t).view.read (Elt Ideal) (result m c) := by
  rw [Value.flushed7]
  unfold out0_7
  rw [View.canon_unit_zero zero_offsets]
  simp only [View.ld_unit_zero (S := S5000x128) zero_offsets, View.ld_unit_zero (S := S5000x1) zero_offsets,
    View.ld_unit_zero (S := S128x128) zero_offsets, View.ld_unit_zero (S := S1x128) zero_offsets]
  funext j
  obtain ⟨p, q, rfl⟩ : ∃ (p : Fin 5000) (q : Fin 128), j = ix2 p q := ⟨j 0, j 1, eq_ix2 j⟩
  show k0_pay1 (F := Ideal) (iblk m c 2 t) (iblk m c 1 t) (iblk m c 0 t) (iblk m c 3 t) (iblk m c 4 t) (iblk m c 5 t) (iblk m c 6 t) (ix2 p q)
    = result m c (((cfg0.win 7).blk t).view.emb (ix2 p q))
  refine (Body.pay_at _ _ _ _ _ _ _ p q).trans ?_
  rw [out_emb]
  unfold result
  rw [Cert.SageSpec.out_ix2]
  unfold Cert.SageSpec.outAt
  simp only [blk_feat, blk_nsum, blk_deg, blk_ws, blk_wn, blk_bs, blk_bn]

/-! ### The blocks cover the array -/

theorem mem_blk (t : Fin cfg0.N) (i : S100000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v17).slice (win0_7.rect t)).set ↔ _
  rw [View.set_slice_whole, Rect.mem_set_unit]
  exact Iff.rfl

/-- Row `r` is in the block of point `r / 5000`. -/
theorem cover (i : S100000x128.Idx) :
    ∃ t : Fin cfg0.N, (cfg0.win 7).flush t = true ∧ i ∈ ((cfg0.win 7).blk t).view.set := by
  have hi0 : (i 0).val < 100000 := (i 0).isLt
  have hi1 : (i 1).val < 128 := (i 1).isLt
  have hN : (i 0).val / 5000 < cfg0.N := by rw [show cfg0.N = 20 from N_0]; omega
  obtain ⟨e0, e1, -⟩ := idx_facts ⟨(i 0).val / 5000, hN⟩
  refine ⟨⟨(i 0).val / 5000, hN⟩, flush0_7 _, ?_⟩
  rw [mem_blk]
  intro a
  match a with
  | ⟨0, _⟩ =>
    show win0_7.index ⟨(i 0).val / 5000, hN⟩ (0 : Fin 2) * 5000 ≤ (i 0).val ∧ (i 0).val < win0_7.index ⟨(i 0).val / 5000, hN⟩ (0 : Fin 2) * 5000 + 5000
    rw [e0]
    show (i 0).val / 5000 * 5000 ≤ (i 0).val ∧ (i 0).val < (i 0).val / 5000 * 5000 + 5000
    omega
  | ⟨1, _⟩ =>
    show win0_7.index ⟨(i 0).val / 5000, hN⟩ (1 : Fin 2) * 128 ≤ (i 1).val ∧ (i 1).val < win0_7.index ⟨(i 0).val / 5000, hN⟩ (1 : Fin 2) * 128 + 128
    rw [e1]
    omega

/-! ### The array after the run, and the run -/

/-- After the run the result array is the layer's function of the launch contents. -/
theorem final (c : Dev nD) : (dats m 0 c).arrAt 7 cfg0.N = result m c :=
  (dats m 0 c).arrAt_eq_of_cover 7 (result m c) (fun t _ => flushed_eq m c t) cover

/-- Every weakly fair execution of the kernel's program ends with the result array at the layer's function and the
    arguments unchanged. -/
theorem run : θ_run defs (onTc (τ := τ) (main (F := Ideal))) ⟨m, fun _ => 0, ρ⟩ fun r => ∀ c : Dev nD,
      r.2.mem ((c : Thread nD τ).loc main_v17) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Whole

end
-- ==== Proof.lean ====
/-
  A graph layer with a mean aggregator: for every node, the features of its in-neighbours are summed (a gather of
  feature rows by the edges' sources, scattered and added by the edges' targets), the sum is divided by the node's
  in-degree clamped below by one, and the node's own features and that mean each go through a 128 × 128 linear map
  with a bias; the two results are added.

  The kernel leaves the gather and the two scatter-adds to the host and computes the rest in one pass over blocks of
  5000 rows; the reference computes everything on the host over the whole arrays. On the extended reals a change of
  float format is the identity and a matrix product into a zero accumulator is the plain sum over the contracted
  coordinate, so both programs compute, entry by entry,

      ((Σₖ feat[r,k] · Ws[k,q] + bs[q]) + Σₖ (nsum[r,k] / max(deg[r], 1)) · Wn[k,q]) + bn[q]

  with the same bracketing: `SageSpec.out`. The neighbour sum and the degree are the same host terms of the same
  arguments in both programs and are never opened; no finiteness of the inputs is used.

  `Spec` states the function; `RefIsSpec` reads the reference's stages at an index; `Payload` reads the kernel body's
  stored block at an entry; `HostArrays` reads the operands the host prepared; `BlocksToArray` puts the 20 blocks
  together. The three frames are the programs' runs with the value dropped; nothing was rewritten when the kernel
  was idealized, so there is nothing to preserve.
-/
import proofs.«145231_j25950192402572_2_alg».proof.Defs
import proofs.«145231_j25950192402572_2_alg».proof.Proof.Gen.Kernel
import proofs.«145231_j25950192402572_2_alg».proof.Proof.Gen.Kernel.Skeleton
import proofs.«145231_j25950192402572_2_alg».proof.Proof.Gen.Kernel.Launch
import proofs.«145231_j25950192402572_2_alg».proof.Proof.Gen.Kernel.Points
import proofs.«145231_j25950192402572_2_alg».proof.Proof.Gen.Kernel.Frame
import proofs.«145231_j25950192402572_2_alg».proof.Proof.Gen.KernelIdeal
import proofs.«145231_j25950192402572_2_alg».proof.Proof.Gen.KernelIdeal.Skeleton
import proofs.«145231_j25950192402572_2_alg».proof.Proof.Gen.KernelIdeal.Launch
import proofs.«145231_j25950192402572_2_alg».proof.Proof.Gen.KernelIdeal.Points
import proofs.«145231_j25950192402572_2_alg».proof.Proof.Gen.KernelIdeal.Frame
import proofs.«145231_j25950192402572_2_alg».proof.Proof.Gen.ReferenceIdeal
import proofs.«145231_j25950192402572_2_alg».proof.Proof.Gen.Pre_finite_inputs
import proofs.«145231_j25950192402572_2_alg».proof.Proof.Gen.KernelIdeal.Value
import proofs.«145231_j25950192402572_2_alg».proof.Proof.Gen.ReferenceIdeal.Run
import proofs.«145231_j25950192402572_2_alg».proof.Proof.Gen.ReferenceIdeal.Read
import proofs.«145231_j25950192402572_2_alg».proof.Proof.Spec
import proofs.«145231_j25950192402572_2_alg».proof.Proof.RefIsSpec
import proofs.«145231_j25950192402572_2_alg».proof.Proof.Payload
import proofs.«145231_j25950192402572_2_alg».proof.Proof.HostArrays
import proofs.«145231_j25950192402572_2_alg».proof.Proof.BlocksToArray
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the seven arguments, the kernel's result array ends at the layer's function of
    them (the blocks put together) and the reference's at its composed term, which is the same function. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.RefValue.ref_eq_spec,
    (hagree c).1, (hagree c).2.1, (hagree c).2.2.1, (hagree c).2.2.2.1, (hagree c).2.2.2.2.1,
    (hagree c).2.2.2.2.2.1, (hagree c).2.2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
